-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x512 : Shape := ⟨3, ![32, 1024, 512]⟩
abbrev S32x1024x1024 : Shape := ⟨3, ![32, 1024, 1024]⟩
abbrev S512x512 : Shape := ⟨2, ![512, 512]⟩
abbrev S512 : Shape := ⟨1, ![512]⟩
abbrev S_ : Shape := ⟨0, ![]⟩

class Facts : Prop where
  bcast_S_S32x1024x512 : S_.BroadcastsInDim S32x1024x512 (![] : Fin 0 → Fin S32x1024x512.rank)
  reducesTo_S32x1024x512_S_d0_1_2 : S32x1024x512.ReducesTo [0, 1, 2] S_
  h_S_ : 0 < S_.numel
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  main_v38

def fn_part1 {F : FTy → Type} [FloatOps F] (main_arg4 : FVec F S512x512 .f32) (main_arg5 : FVec F S512 .f32) (main_arg6 : FVec F S512x512 .f32) (main_arg7 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512x512 .f32 := Host.absf main_arg6
  let main_cst_10 : FVec F S_ .f32 := constant S_ .f32 0x7F800000#32
  let main_v30 : FVec F S512x512 .f32 := broadcastInDim S512x512 ![] bcast_S_S512x512 main_cst_10
  let main_v31 : IVec S512x512 1 := cmpf .olt main_v29 main_v30
  let main_c_11 : IVec S_ 1 := constantI S_ 1 1#1
  let main_v32 : IVec S_ 1 := (fun x v => Host.reduce IntOp.andi x v reducesTo_S512x512_S_d0_1 h_S_) main_v31 main_c_11
  let main_v33 : IVec S_ 1 := andi main_v28 main_v32
  fn_part2 (F := F) main_arg7 main_v33

def fn {F : FTy → Type} [FloatOps F] (main_arg0 : FVec F S32x1024x512 .f32) (main_arg1 : FVec F S32x1024x1024 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) : IVec S_ 1 :=
  let main_v0 : FVec F S32x1024x512 .f32 := Host.absf main_arg0
  let main_cst : FVec F S_ .f32 := constant S_ .f32 0x7F800000#32
  let main_v1 : FVec F S32x1024x512 .f32 := broadcastInDim S32x1024x512 ![] bcast_S_S32x1024x512 main_cst
  let main_v2 : IVec S32x1024x512 1 := cmpf .olt main_v0 main_v1
  let main_c : IVec S_ 1 := constantI S_ 1 1#1
  let main_v3 : IVec S_ 1 := (fun x v => Host.reduce IntOp.andi x v reducesTo_S32x1024x512_S_d0_1_2 h_S_) main_v2 main_c
  let main_v4 : FVec F S32x1024x1024 .f32 := Host.absf main_arg1
  let main_cst_0 : FVec F S_ .f32 := constant S_ .f32 0x7F800000#32
  let main_v5 : FVec F S32x1024x1024 .f32 := broadcastInDim S32x1024x1024 ![] bcast_S_S32x1024x1024 main_cst_0
  let main_v6 : IVec S32x1024x1024 1 := cmpf .olt main_v4 main_v5
  let main_c_1 : IVec S_ 1 := constantI S_ 1 1#1
  let main_v7 : IVec S_ 1 := (fun x v => Host.reduce IntOp.andi x v reducesTo_S32x1024x1024_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_v13 main_v16
-- ==== Kernel.lean ====
abbrev S32x1024x512 : Shape := ⟨3, ![32, 1024, 512]⟩
abbrev S32x1024x1024 : Shape := ⟨3, ![32, 1024, 1024]⟩
abbrev S512x512 : Shape := ⟨2, ![512, 512]⟩
abbrev S512 : Shape := ⟨1, ![512]⟩
abbrev S1x512 : Shape := ⟨2, ![1, 512]⟩
abbrev S1x1024x512 : Shape := ⟨3, ![1, 1024, 512]⟩
abbrev S1x1024x1024 : Shape := ⟨3, ![1, 1024, 1024]⟩
abbrev S1024x1024 : Shape := ⟨2, ![1024, 1024]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S32x1024x512, .f32⟩
  | .hbm, ⟨1, _⟩ => ⟨S32x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .bf16⟩
  | .hbm, ⟨9, _⟩ => ⟨S512x512, .bf16⟩
  | .hbm, ⟨10, _⟩ => ⟨S512x512, .bf16⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S32x1024x512, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x1024, .f32⟩
  | .local _ .vmem, ⟨3, _⟩ => ⟨S1x1024x1024, .f32⟩
  | .local _ .vmem, ⟨4, _⟩ => ⟨S512x512, .bf16⟩
  | .local _ .vmem, ⟨5, _⟩ => ⟨S1x512, .f32⟩
  | .local _ .vmem, ⟨6, _⟩ => ⟨S512x512, .bf16⟩
  | .local _ .vmem, ⟨7, _⟩ => ⟨S1x512, .f32⟩
  | .local _ .vmem, ⟨8, _⟩ => ⟨S512x512, .bf16⟩
  | .local _ .vmem, ⟨9, _⟩ => ⟨S1x512, .f32⟩
  | .local _ .vmem, ⟨10, _⟩ => ⟨S1x1024x512, .f32⟩
  | .local _ .vmem, ⟨11, _⟩ => ⟨S1x1024x512, .f32⟩
  | .local _ .vmem, ⟨12, _⟩ => ⟨S1024x1024, .bf16⟩
  | _, _ => ⟨S32x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  shapeCasts_S512_S1x512 : S512.ShapeCasts S1x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  shapeCasts_S1024x512_S1x1024x512 : S1024x512.ShapeCasts S1x1024x512
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S32x1024x512.size a
  hwx0_0 : ∀ i : grid0.Coords, EltTy.bits .f32 = 32 ∨ (Rect.block (s := S32x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S32x1024x1024.size a
  hwx0_1 : ∀ i : grid0.Coords, EltTy.bits .f32 = 32 ∨ (Rect.block (s := S32x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1024x512.size a ≤ S32x1024x512.size a
  hwx0_8 : ∀ i : grid0.Coords, EltTy.bits .f32 = 32 ∨ (Rect.block (s := S32x1024x512) S1x1024x512.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x1024x512 : Shape := ⟨3, ![32, 1024, 512]⟩
abbrev S32x1024x1024 : Shape := ⟨3, ![32, 1024, 1024]⟩
abbrev S512x512 : Shape := ⟨2, ![512, 512]⟩
abbrev S512 : Shape := ⟨1, ![512]⟩
abbrev S1x1x512 : Shape := ⟨3, ![1, 1, 512]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S32x1024x512, .f32⟩
  | .hbm, ⟨1, _⟩ => ⟨S32x1024x1024, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S32x1024x512, .f32⟩
  | .hbm, ⟨9, _⟩ => ⟨S32x1024x512, .f32⟩
  | .hbm, ⟨10, _⟩ => ⟨S1x1x512, .f32⟩
  | .hbm, ⟨11, _⟩ => ⟨S32x1024x512, .f32⟩
  | .hbm, ⟨12, _⟩ => ⟨S32x1024x512, .f32⟩
  | .hbm, ⟨13, _⟩ => ⟨S_, .f32⟩
  | .hbm, ⟨14, _⟩ => ⟨S32x1024x512, .f32⟩
  | .hbm, ⟨15, _⟩ => ⟨S32x1024x512, .f32⟩
  | .hbm, ⟨16, _⟩ => ⟨S32x1024x512, .f32⟩
  | .hbm, ⟨17, _⟩ => ⟨S32x1024x512, .f32⟩
  | .hbm, ⟨18, _⟩ => ⟨S1x1x512, .f32⟩
  | .hbm, ⟨19, _⟩ => ⟨S32x1024x512, .f32⟩
  | .hbm, ⟨20, _⟩ => ⟨S32x1024x512, .f32⟩
  | .hbm, ⟨21, _⟩ => ⟨S_, .f32⟩
  | .hbm, ⟨22, _⟩ => ⟨S32x1024x512, .f32⟩
  | .hbm, ⟨23, _⟩ => ⟨S32x1024x512, .f32⟩
  | .hbm, ⟨24, _⟩ => ⟨S32x1024x512, .f32⟩
  | .hbm, ⟨25, _⟩ => ⟨S32x1024x512, .f32⟩
  | .hbm, ⟨26, _⟩ => ⟨S1x1x512, .f32⟩
  | .hbm, ⟨27, _⟩ => ⟨S32x1024x512, .f32⟩
  | .hbm, ⟨28, _⟩ => ⟨S32x1024x512, .f32⟩
  | _, _ => ⟨S32x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  dot_S32x1024x512_S512x512_S32x1024x512_2_0_01_1_n_n_wf : DotDims.WF S32x1024x512 S512x512 S32x1024x512 [2] [0] [0, 1] [1] [] []
  dot_S32x1024x1024_S32x1024x512_S32x1024x512_2_1_1_2_0_0_wf : DotDims.WF S32x1024x1024 S32x1024x512 S32x1024x512 [2] [1] [1] [2] [0] [0]

variable [Facts₀]

def dot_S32x1024x512_S512x512_S32x1024x512_2_0_01_1_n_n : DotDims S32x1024x512 S512x512 S32x1024x512 where
  lhsContracting := [2]
  rhsContracting := [0]
  lhsNonContracting := [0, 1]
  rhsNonContracting := [1]
  lhsBatch := []
  rhsBatch := []
  wf := dot_S32x1024x512_S512x512_S32x1024x512_2_0_01_1_n_n_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf

class Facts : Prop extends Facts₀ where

variable [Facts]
-- ==== Proof.Spec.lean ====
/-
  What the two programs compute, as one function of the argument arrays.

  For one graph of the batch, with adjacency matrix `A` (1024 × 1024), node features `H` (1024 × 512), weights `W`
  (512 × 512) and bias `b` (512), a graph-convolution layer is `A · (H · W) + b`, the bias added to every row:
  entry `(n, h)` is `Σ_m A(n, m) · (Σ_f H(m, f) · W(f, h)) + b(h)`.  The network is three such layers over the same
  adjacency matrix, with `max(·, 0)` applied entrywise after the first and after the second.  Over the extended reals
  these are honest sums and products; nothing here needs an entry to be finite, because both programs group the
  products in exactly this way and no law beyond "the same sum of the same terms" is used.
-/
import Idealize.ShloMosaic.PureOps.Ideal
import Idealize.ShloMosaic.Lib.ValueIdx

noncomputable section

open scoped BigOperators

namespace Cert.Gcn

open Idealize.ShloMosaic Idealize.ShloMosaic.ValueIdx

/-- One layer of one graph at entry `(n, h)`: `Σ_m A(n, m) · (Σ_f H(m, f) · W(f, h)) + b(h)`. -/
def layer (A : Fin 1024 → Fin 1024 → EReal) (H : Fin 1024 → Fin 512 → EReal) (W : Fin 512 → Fin 512 → EReal)
    (b : Fin 512 → EReal) (n : Fin 1024) (h : Fin 512) : EReal :=
  (∑ m : Fin 1024, A n m * ∑ f : Fin 512, H m f * W f h) + b h

/-- The rectifier, entrywise. -/
def relu (H : Fin 1024 → Fin 512 → EReal) (n : Fin 1024) (h : Fin 512) : EReal := max (H n h) 0

/-- Three layers over one adjacency matrix, rectified after the first two. -/
def net (A : Fin 1024 → Fin 1024 → EReal) (X : Fin 1024 → Fin 512 → EReal)
    (W1 : Fin 512 → Fin 512 → EReal) (b1 : Fin 512 → EReal) (W2 : Fin 512 → Fin 512 → EReal) (b2 : Fin 512 → EReal)
    (W3 : Fin 512 → Fin 512 → EReal) (b3 : Fin 512 → EReal) : Fin 1024 → Fin 512 → EReal :=
  layer A (relu (layer A (relu (layer A X W1 b1)) W2 b2)) W3 b3

/-- A layer depends on its operands only through their entries: equal entries, equal layer. -/
theorem layer_congr {A A' : Fin 1024 → Fin 1024 → EReal} {H H' : Fin 1024 → Fin 512 → EReal}
    {W W' : Fin 512 → Fin 512 → EReal} {b b' : Fin 512 → EReal}
    (hA : ∀ n m, A n m = A' n m) (hH : ∀ m f, H m f = H' m f) (hW : ∀ f h, W f h = W' f h) (hb : ∀ h, b h = b' h)
    (n : Fin 1024) (h : Fin 512) : layer A H W b n h = layer A' H' W' b' n h := by
  unfold layer
  rw [hb h]
  refine congrArg (· + b' h) (Finset.sum_congr rfl fun m _ => ?_)
  rw [hA n m]
  refine congrArg (A' n m * ·) (Finset.sum_congr rfl fun f _ => ?_)
  rw [hH m f, hW f h]

/-- The network, too, depends on its operands only through their entries. -/
theorem net_congr {A A' : Fin 1024 → Fin 1024 → EReal} {X X' : Fin 1024 → Fin 512 → EReal}
    {W1 W1' W2 W2' W3 W3' : Fin 512 → Fin 512 → EReal} {b1 b1' b2 b2' b3 b3' : Fin 512 → EReal}
    (hA : ∀ n m, A n m = A' n m) (hX : ∀ n f, X n f = X' n f)
    (hW1 : ∀ f h, W1 f h = W1' f h) (hb1 : ∀ h, b1 h = b1' h) (hW2 : ∀ f h, W2 f h = W2' f h) (hb2 : ∀ h, b2 h = b2' h)
    (hW3 : ∀ f h, W3 f h = W3' f h) (hb3 : ∀ h, b3 h = b3' h) (n : Fin 1024) (h : Fin 512) :
    net A X W1 b1 W2 b2 W3 b3 n h = net A' X' W1' b1' W2' b2' W3' b3' n h := by
  unfold net
  refine layer_congr hA (fun m f => ?_) hW3 hb3 n h
  unfold relu
  refine congrArg (max · 0) (layer_congr hA (fun m f => ?_) hW2 hb2 m f)
  exact congrArg (max · 0) (layer_congr hA hX hW1 hb1 m f)

/-- The whole batch: entry `(β, n, h)` of the result is the network of graph `β` — its adjacency matrix and features
    are the slices `β` of the two batched arrays, the weights and biases are shared. -/
def batched (x : (⟨3, ![32, 1024, 512]⟩ : Shape).Idx → EReal) (adj : (⟨3, ![32, 1024, 1024]⟩ : Shape).Idx → EReal)
    (w1 : (⟨2, ![512, 512]⟩ : Shape).Idx → EReal) (b1 : (⟨1, ![512]⟩ : Shape).Idx → EReal)
    (w2 : (⟨2, ![512, 512]⟩ : Shape).Idx → EReal) (b2 : (⟨1, ![512]⟩ : Shape).Idx → EReal)
    (w3 : (⟨2, ![512, 512]⟩ : Shape).Idx → EReal) (b3 : (⟨1, ![512]⟩ : Shape).Idx → EReal) :
    (⟨3, ![32, 1024, 512]⟩ : Shape).Idx → EReal := fun i =>
  net (fun n m => adj (ix3 (i 0) n m)) (fun n f => x (ix3 (i 0) n f))
    (fun f h => w1 (ix2 f h)) (fun h => b1 (ix1 h)) (fun f h => w2 (ix2 f h)) (fun h => b2 (ix1 h))
    (fun f h => w3 (ix2 f h)) (fun h => b3 (ix1 h)) (i 1) (i 2)

end Cert.Gcn

end
-- ==== Proof.LibPlainDot.lean ====
/-
  A plain matrix product read at an entry.

  A contraction whose dimension numbers say "the second axis of an [A, K] operand against the first axis of a [K, B]
  operand, no batch axis, result [A, B]" reads its left operand at (row of the result, k) and its right operand at
  (k, column of the result), `k` ranging over the one contracted axis.  So the sum over the contraction index of the
  operands' products, at result entry (p, c), is `Σ_{k < K} l (p, k) · r (k, c)`; a `tpu.matmul` into the zero splat
  is exactly that sum at the ideal values.  Generic in A, K, B and in the record: the hypotheses are the record's six lists.
-/
import Idealize.ShloMosaic.PureOps.Ideal.Laws
import Idealize.ShloMosaic.Lib.ValueIdx

noncomputable section

namespace Cert.LibPlainDot

open Idealize.ShloMosaic Idealize.ShloMosaic.ValueIdx

/-- The dimension numbers of a plain product `[A, K] × [K, B] → [A, B]`. -/
structure Plain {A K B : Nat} (D : DotDims ⟨2, ![A, K]⟩ ⟨2, ![K, B]⟩ ⟨2, ![A, B]⟩) : Prop where
  lc : D.lhsContracting = [1]
  rc : D.rhsContracting = [0]
  ln : D.lhsNonContracting = [0]
  rn : D.rhsNonContracting = [1]
  lb : D.lhsBatch = []
  rb : D.rhsBatch = []

variable {A K B : Nat} {D : DotDims ⟨2, ![A, K]⟩ ⟨2, ![K, B]⟩ ⟨2, ![A, B]⟩}

/-- One axis is contracted. -/
theorem Plain.rank (h : Plain D) : D.contr.rank = 1 := by rw [D.rank_contr, h.lc]; rfl

/-- Its extent is `K`. -/
theorem Plain.size (h : Plain D) : D.contr.size ⟨0, by rw [h.rank]; exact Nat.one_pos⟩ = K := by
  rw [D.size_contr 0 (by rw [h.lc]; exact Nat.one_pos)]
  simp only [h.lc, List.getElem_cons_zero]
  rfl

/-- The left operand is read at the result's row … -/
theorem Plain.lhs0 (h : Plain D) (j : (⟨2, ![A, B]⟩ : Shape).Idx) (q : D.contr.Idx) : (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln])

/-- … and the contraction position, -/
theorem Plain.lhs1 (h : Plain D) (j : (⟨2, ![A, B]⟩ : Shape).Idx) (q : D.contr.Idx) :
    (D.lhsIdx j q 1).val = (q ⟨0, by rw [h.rank]; exact Nat.one_pos⟩).val :=
  D.lhsIdx_val_of_single h.lc j q

/-- the right operand at the contraction position … -/
theorem Plain.rhs0 (h : Plain D) (j : (⟨2, ![A, B]⟩ : Shape).Idx) (q : D.contr.Idx) :
    (D.rhsIdx j q 0).val = (q ⟨0, by rw [h.rank]; exact Nat.one_pos⟩).val :=
  D.rhsIdx_val_of_single h.rc j q

/-- … and the result's column. -/
theorem Plain.rhs1 (h : Plain D) (j : (⟨2, ![A, B]⟩ : Shape).Idx) (q : D.contr.Idx) : (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![A, B]⟩ : Shape).rank) (hb : b < (⟨2, ![A, B]⟩ : Shape).rank), a = b →
      (j ⟨a, ha⟩).val = (j ⟨b, hb⟩).val := fun a b ha hb e => by subst e; rfl
  exact key _ _ _ _ (by simp [h.lb, h.ln, h.rn])

/-- The contraction sum at result entry `(p, c)` is `Σ_k l (p, k) · r (k, c)`. -/
theorem Plain.sum_eq (h : Plain D) (l : (⟨2, ![A, K]⟩ : Shape).Idx → EReal) (r : (⟨2, ![K, B]⟩ : Shape).Idx → EReal)
    (p : Fin A) (c : Fin B) :
    ∑ q : D.contr.Idx, l (D.lhsIdx (ix2 p c) q) * r (D.rhsIdx (ix2 p c) q) = ∑ k : Fin K, l (ix2 p k) * r (ix2 k c) := by
  rw [← Equiv.sum_comp (contrEquiv1 D K h.rank h.size).symm]
  refine Finset.sum_congr rfl fun k _ => ?_
  have hk := contrEquiv1_symm_val D K h.rank h.size k
  have el : D.lhsIdx (ix2 p c) ((contrEquiv1 D K h.rank h.size).symm k) = ix2 p k := funext fun a => Fin.ext (by
    match a with
    | ⟨0, _⟩ => exact h.lhs0 _ _
    | ⟨1, _⟩ => exact (h.lhs1 _ _).trans hk)
  have er : D.rhsIdx (ix2 p c) ((contrEquiv1 D K h.rank h.size).symm k) = ix2 k c := funext fun a => Fin.ext (by
    match a with
    | ⟨0, _⟩ => exact (h.rhs0 _ _).trans hk
    | ⟨1, _⟩ => exact h.rhs1 _ _)
  rw [el, er]

/-- A `tpu.matmul` of such dimension numbers into the zero accumulator, at the ideal values, read at `(p, c)`. -/
theorem Plain.matmul_zero_apply (h : Plain D) (prec : Option ContractPrecision)
    (l : FVec Ideal ⟨2, ![A, K]⟩ .f32) (r : FVec Ideal ⟨2, ![K, B]⟩ .f32) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

/-- A host `dot_general` of such dimension numbers, at the ideal values, read at `(p, c)`. -/
theorem Plain.dotGeneral_apply (h : Plain D) (prec : Option ContractPrecision) (sched : HostSchedule)
    (l : FVec Ideal ⟨2, ![A, K]⟩ .f32) (r : FVec Ideal ⟨2, ![K, B]⟩ .f32) (p : Fin A) (c : Fin B) :
    FloatOps.dotGeneral D prec sched l r (ix2 p c) = ∑ k : Fin K, l (ix2 p k) * r (ix2 k c) :=
  (Ideal.dotGeneral_apply D prec sched l r (ix2 p c)).trans (h.sum_eq l r p c)

end Cert.LibPlainDot

end
-- ==== Proof.LibPlainDotFormats.lean ====
/-
  A plain matrix product `[A, K] × [K, B] → [A, B]` into the zero accumulator read at an entry, for operands of ANY
  float formats: over the extended reals a format only names the set the entries came from, so the sum
  `Σ_{k < K} l (p, k) · r (k, c)` is the same whatever the two formats are.
-/
import proofs.«165957_j12807592477476_2_alg».proof.Proof.LibPlainDot

noncomputable section

namespace Cert.LibPlainDot

open Idealize.ShloMosaic Idealize.ShloMosaic.ValueIdx

variable {A K B : Nat} {D : DotDims ⟨2, ![A, K]⟩ ⟨2, ![K, B]⟩ ⟨2, ![A, B]⟩}

/-- A `tpu.matmul` of plain dimension numbers into the zero accumulator, at the ideal values, read at `(p, c)`,
    whatever the operands' formats. -/
theorem Plain.matmul_zero_apply_formats (h : Plain D) (prec : Option ContractPrecision) {φ₁ φ₂ : FTy}
    (l : FVec Ideal ⟨2, ![A, K]⟩ φ₁) (r : FVec Ideal ⟨2, ![K, B]⟩ φ₂) (p : Fin A) (c : Fin B) :
    FloatOps.matmul D prec l r (constant ⟨2, ![A, B]⟩ .f32 0x00000000#32) (ix2 p c) = ∑ k : Fin K, l (ix2 p k) * r (ix2 k c) :=
  (Ideal.matmul_constant_zero_apply D prec l r (ix2 p c)).trans (h.sum_eq l r p c)

end Cert.LibPlainDot

end
-- ==== Proof.Body.lean ====
/-
  The kernel body's arithmetic, entry by entry over the extended reals.

  At a grid step the body holds one graph: its features `x0` (a [1, 1024, 512] block), its adjacency matrix `x1`
  (a [1, 1024, 1024] block), three weight matrices and three one-row biases.  It drops the leading unit axis of the
  two blocks, and then computes, three times over, "adjacency matrix times (features times weights), plus the bias
  row spread over all rows", taking `max(·, 0)` of the first two results before they become the next features; the
  last result gets the unit axis back and is stored.  Every change of float format on the way is the identity on
  extended reals, and a matrix product into a zero accumulator is the plain sum of products.  So entry `(u, n, h)` of
  what is stored is the three-layer network of `Spec.lean` at `(n, h)`, over the blocks' entries.
-/
import proofs.«165957_j12807592477476_2_alg».proof.Proof.Gen.KernelIdeal.Skeleton
import proofs.«165957_j12807592477476_2_alg».proof.Proof.Spec
import proofs.«165957_j12807592477476_2_alg».proof.Proof.LibPlainDotFormats
import Idealize.ShloMosaic.Lib.ValueLayout
import Idealize.ShloMosaic.PureOps.Ideal.Laws

noncomputable section

open scoped BigOperators
open Idealize.ShloMosaic Idealize.ShloMosaic.ValueIdx

namespace Cert.KernelIdeal.Body

open Cert.KernelIdeal Cert.KernelIdeal.Gen Cert.Gcn Cert.LibPlainDot

variable {F : FTy → Type} [FloatOps F]

/-! ## The body's value as three layers -/

/-- One layer as the body spells it: `A · (H · W)`, both products into zero accumulators, plus the bias row spread
    over the 1024 rows. -/
def blockLayer (A : FVec F S1024x1024 .bf16) (H : FVec F S1024x512 .bf16) (W : FVec F S512x512 .bf16)
    (b : Vec F S1x512 .f32) : FVec F S1024x512 .f32 :=
  addf
    (matmul dot_S1024x1024_S1024x512_S1024x512_1_0_0_1_n_n none A
      (truncf .bf16 (matmul dot_S1024x512_S512x512_S1024x512_1_0_0_1_n_n none H W (constant S1024x512 .f32 0x00000000#32))
        bitsLt_bf16_f32)
      (constant S1024x512 .f32 0x00000000#32))
    (broadcastTo S1024x512 (shapeCast S1x512 b shapeCasts_S1x512_S1x512) broadcasts_S1x512_S1024x512)

/-- `max(·, 0)` entrywise, then handed on as the next layer's features. -/
def rectified (v : FVec F S1024x512 .f32) : FVec F S1024x512 .bf16 :=
  truncf .bf16 (maximumf v (broadcast S1024x512 (Scalar.ofBits .f32 0x00000000#32))) bitsLt_bf16_f32

/-- The value stored over the output block, from the step's eight input blocks, with the scratch matrix read back as
    the re-laid adjacency block (`k0_pay2 x1`) each of the three times. -/
def stored (x0 : Vec F S1x1024x512 .f32) (x1 : Vec F S1x1024x1024 .f32) (x2 : Vec F S512x512 .bf16) (x3 : Vec F S1x512 .f32)
    (x4 : Vec F S512x512 .bf16) (x5 : Vec F S1x512 .f32) (x6 : Vec F S512x512 .bf16) (x7 : Vec F S1x512 .f32) :
    Vec F S1x1024x512 .f32 :=
  k0_pay1 (k0_pay3 x0 x2 (k0_pay2 x1) x3 x4 (k0_pay2 x1) x5) (Scalar.ofBits .f32 0x00000000#32) x6 (k0_pay2 x1) x7

/-- The stored value is three block layers over one adjacency matrix, rectified after the first two, with the leading
    unit axis put back: the payloads' definitions, regrouped. -/
theorem stored_eq_layers (x0 : Vec F S1x1024x512 .f32) (x1 : Vec F S1x1024x1024 .f32) (x2 : Vec F S512x512 .bf16)
    (x3 : Vec F S1x512 .f32) (x4 : Vec F S512x512 .bf16) (x5 : Vec F S1x512 .f32) (x6 : Vec F S512x512 .bf16)
    (x7 : Vec F S1x512 .f32) :
    stored x0 x1 x2 x3 x4 x5 x6 x7
      = shapeCast S1x1024x512
          (blockLayer (k0_pay2 x1)
            (rectified (blockLayer (k0_pay2 x1)
              (rectified (blockLayer (k0_pay2 x1)
                (truncf .bf16 (shapeCast S1024x512 x0 shapeCasts_S1x1024x512_S1024x512) bitsLt_bf16_f32)
                (shapeCast S512x512 x2 shapeCasts_S512x512_S512x512) x3))
              (shapeCast S512x512 x4 shapeCasts_S512x512_S512x512) x5))
            (shapeCast S512x512 x6 shapeCasts_S512x512_S512x512) x7)
          shapeCasts_S1024x512_S1x1024x512 := rfl

/-! ## Entry by entry, over the extended reals -/

theorem plain_hw : Plain dot_S1024x512_S512x512_S1024x512_1_0_0_1_n_n := ⟨rfl, rfl, rfl, rfl, rfl, rfl⟩
theorem plain_ah : Plain dot_S1024x1024_S1024x512_S1024x512_1_0_0_1_n_n := ⟨rfl, rfl, rfl, rfl, rfl, rfl⟩

/-- A block layer at entry `(n, h)` is the layer of the operands' entries; the bias row is read at its one row. -/
theorem blockLayer_apply (A : FVec Ideal S1024x1024 .bf16) (H : FVec Ideal S1024x512 .bf16) (W : FVec Ideal S512x512 .bf16)
    (b : Vec Ideal S1x512 .f32) (n : Fin 1024) (h : Fin 512) :
    blockLayer (F := Ideal) A H W b (ix2 n h)
      = layer (fun n m => A (ix2 n m)) (fun m f => H (ix2 m f)) (fun f h => W (ix2 f h)) (fun h => b (ix2 (0 : Fin 1) h)) n h := by
  have hb : broadcastTo S1024x512 (shapeCast S1x512 b shapeCasts_S1x512_S1x512) broadcasts_S1x512_S1024x512 (ix2 n h)
      = b (ix2 (0 : Fin 1) h) := by
    rw [broadcastTo_1b_ab_apply, shapeCast_self]
  have hin : ∀ m : Fin 1024,
      (truncf .bf16 (matmul dot_S1024x512_S512x512_S1024x512_1_0_0_1_n_n none H W (constant (F := Ideal) S1024x512 .f32 0x00000000#32))
        bitsLt_bf16_f32 : FVec Ideal S1024x512 .bf16) (ix2 m h) = ∑ f : Fin 512, H (ix2 m f) * W (ix2 f h) :=
    fun m => plain_hw.matmul_zero_apply_formats none H W m h
  have hout := plain_ah.matmul_zero_apply_formats none A
    (truncf .bf16 (matmul dot_S1024x512_S512x512_S1024x512_1_0_0_1_n_n none H W (constant (F := Ideal) S1024x512 .f32 0x00000000#32))
      bitsLt_bf16_f32 : FVec Ideal S1024x512 .bf16) n h
  unfold blockLayer layer
  show FloatOps.matmul _ _ _ _ _ (ix2 n h) + broadcastTo S1024x512 _ _ (ix2 n h) = _
  rw [hb]
  refine congrArg (· + b (ix2 (0 : Fin 1) h)) (hout.trans (Finset.sum_congr rfl fun m _ => ?_))
  rw [hin m]

/-- The rectified value at entry `(n, h)` is `max` of the entry and zero. -/
theorem rectified_apply (v : FVec Ideal S1024x512 .f32) (n : Fin 1024) (h : Fin 512) :
    rectified (F := Ideal) v (ix2 n h) = max (v (ix2 n h)) 0 := by
  show max (v (ix2 n h)) (Ideal.ofBits .f32 0x00000000#32) = _
  rw [Ideal.ofBits_zero_f32]

/-- The scratch matrix at `(n, m)` is the adjacency block at `(0, n, m)`. -/
theorem adjacency_apply (x1 : Vec Ideal S1x1024x1024 .f32) (n m : Fin 1024) :
    k0_pay2 (F := Ideal) x1 (ix2 n m) = x1 (ix3 (0 : Fin 1) n m) := by
  unfold k0_pay2
  rw [shapeCast_self]
  exact shapeCast_1ab_ab_apply x1 shapeCasts_S1x1024x1024_S1024x1024 n m

/-- The first layer's features at `(n, f)` are the feature block at `(0, n, f)`. -/
theorem features_apply (x0 : Vec Ideal S1x1024x512 .f32) (n : Fin 1024) (f : Fin 512) :
    (truncf .bf16 (shapeCast S1024x512 x0 shapeCasts_S1x1024x512_S1024x512) bitsLt_bf16_f32 : FVec Ideal S1024x512 .bf16) (ix2 n f)
      = x0 (ix3 (0 : Fin 1) n f) :=
  shapeCast_1ab_ab_apply x0 shapeCasts_S1x1024x512_S1024x512 n f

/-- ENTRY `(u, n, h)` OF WHAT IS STORED: the three-layer network at `(n, h)` over the blocks' entries. -/
theorem stored_apply (x0 : Vec Ideal S1x1024x512 .f32) (x1 : Vec Ideal S1x1024x1024 .f32) (x2 : Vec Ideal S512x512 .bf16)
    (x3 : Vec Ideal S1x512 .f32) (x4 : Vec Ideal S512x512 .bf16) (x5 : Vec Ideal S1x512 .f32) (x6 : Vec Ideal S512x512 .bf16)
    (x7 : Vec Ideal S1x512 .f32) (u : Fin 1) (n : Fin 1024) (h : Fin 512) :
    stored (F := Ideal) x0 x1 x2 x3 x4 x5 x6 x7 (ix3 u n h)
      = net (fun n m => x1 (ix3 (0 : Fin 1) n m)) (fun n f => x0 (ix3 (0 : Fin 1) n f))
          (fun f h => x2 (ix2 f h)) (fun h => x3 (ix2 (0 : Fin 1) h))
          (fun f h => x4 (ix2 f h)) (fun h => x5 (ix2 (0 : Fin 1) h))
          (fun f h => x6 (ix2 f h)) (fun h => x7 (ix2 (0 : Fin 1) h)) n h := by
  rw [stored_eq_layers, shapeCast_ab_1ab_apply, blockLayer_apply]
  unfold net
  refine layer_congr (fun n m => adjacency_apply x1 n m) (fun m f => ?_) (fun f h => ?_) (fun h => rfl) n h
  · rw [rectified_apply, blockLayer_apply]
    unfold relu
    refine congrArg (max · 0) (layer_congr (fun n m => adjacency_apply x1 n m) (fun m f => ?_) (fun f h => ?_) (fun h => rfl) m f)
    · rw [rectified_apply, blockLayer_apply]
      refine congrArg (max · 0) (layer_congr (fun n m => adjacency_apply x1 n m) (fun m f => features_apply x0 m f)
        (fun f h => ?_) (fun h => rfl) m f)
      rw [shapeCast_self]
    · rw [shapeCast_self]
  · rw [shapeCast_self]

end Cert.KernelIdeal.Body

end
-- ==== Proof.Found.lean ====
/-
  What one grid step leaves in the output block, as a value.

  The kernel body at a grid step loads the step's eight input blocks whole, writes the adjacency block (re-laid as a
  1024 × 1024 matrix) into its scratch buffer, reads that matrix back three times, and stores ONE value over the whole
  output block.  So the output block after the step is that one stored value, in which every read of the scratch is
  the matrix that was just written there: the output is a function of the step's input blocks alone, and nothing is
  carried from one grid step to the next.
-/
import proofs.«165957_j12807592477476_2_alg».proof.Proof.Gen.KernelIdeal.Frame
import proofs.«165957_j12807592477476_2_alg».proof.Proof.Body
import Idealize.ShloMosaic.Lib.Pipeline.Value
import Idealize.ShloMosaic.Lib.Tactic

noncomputable section

open Idealize.ShloMosaic Idealize.ShloMosaic.TcCoe Idealize.ShloMosaic.Tactic Idealize.SL.Sem

namespace Cert.KernelIdeal.Found

open Cert.KernelIdeal Cert.KernelIdeal.Gen Cert.KernelIdeal.Body

variable {F : FTy → Type} [FloatOps F]

theorem zero3 : (![0, 0, 0] : Fin 3 → Nat) = fun _ => 0 := funext fun a => by fin_cases a <;> rfl
theorem zero2 : (![0, 0] : Fin 2 → Nat) = fun _ => 0 := funext fun a => by fin_cases a <;> rfl

/-- After the body, the output block holds `stored` of the step's input blocks: its one store covers the block, each
    whole-block load reads its block, and each load of the scratch reads back the one store made to it. -/
theorem out_eq_stored (c : Dev nD) (i : grid0.Coords) (arg1 : Memref sig .tc .vmem S1x1024x512 .f32) (harg1 : arg1.IsWhole) (arg2 : Memref sig .tc .vmem S1x1024x1024 .f32) (harg2 : arg2.IsWhole) (arg3 : Memref sig .tc .vmem S512x512 .bf16) (harg3 : arg3.IsWhole) (arg4 : Memref sig .tc .vmem S1x512 .f32) (harg4 : arg4.IsWhole) (arg5 : Memref sig .tc .vmem S512x512 .bf16) (harg5 : arg5.IsWhole) (arg6 : Memref sig .tc .vmem S1x512 .f32) (harg6 : arg6.IsWhole) (arg7 : Memref sig .tc .vmem S512x512 .bf16) (harg7 : arg7.IsWhole) (arg8 : Memref sig .tc .vmem S1x512 .f32) (harg8 : arg8.IsWhole) (arg9 : Memref sig .tc .vmem S1x1024x512 .f32) (harg9 : arg9.IsWhole) (arg10 : Memref sig .tc .vmem S1024x1024 .bf16) (harg10 : arg10.IsWhole)
    (x0 : Vec F S1x1024x512 .f32) (x1 : Vec F S1x1024x1024 .f32) (x2 : Vec F S512x512 .bf16) (x3 : Vec F S1x512 .f32) (x4 : Vec F S512x512 .bf16) (x5 : Vec F S1x512 .f32) (x6 : Vec F S512x512 .bf16) (x7 : Vec F S1x512 .f32) :
    out0_A_8 c i arg1 harg1 arg2 harg2 arg3 harg3 arg4 harg4 arg5 harg5 arg6 harg6 arg7 harg7 arg8 harg8 arg9 harg9 arg10 harg10 x0 x1 x2 x3 x4 x5 x6 x7 = stored x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero zero3]
  unfold stored
  simp only [View.readAt_eq_ld, harg1.read_unread, harg2.read_unread, harg3.read_unread, harg4.read_unread,
    harg5.read_unread, harg6.read_unread, harg7.read_unread, harg8.read_unread,
    View.ld_unit_zero (S := S1x1024x512) zero3, View.ld_unit_zero (S := S1x1024x1024) zero3,
    View.ld_unit_zero (S := S512x512) zero2, View.ld_unit_zero (S := S1x512) zero2,
    View.readCov_unit_zero (S := S1024x1024) _ zero2]

end Cert.KernelIdeal.Found

end
-- ==== Proof.Whole.lean ====
/-
  From grid steps to the whole result array.

  The grid has 32 steps, one per graph of the batch.  At step `t` the feature, adjacency and output windows hold slab
  `t` of their [32, …] arrays (a block with a leading unit axis), and the weight and bias windows hold their whole
  arrays at every step.  The weights the kernel is given are the arguments cast to a narrower float format by the host
  (the same extended reals) and its biases are the arguments viewed as one-row arrays (entry `(0, h)` is the vector's
  entry `h`).  So what step `t` writes back is slab `t` of the batched network of the ARGUMENT arrays; the 32 slabs
  cover the result array, one step each; hence after the run the result array is the batched network.
-/
import proofs.«165957_j12807592477476_2_alg».proof.Proof.Gen.KernelIdeal.Value
import proofs.«165957_j12807592477476_2_alg».proof.Proof.Found
import Idealize.ShloMosaic.Lib.StableHlo.Run
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.Gcn

variable (m : (ℓ : Loc nD τ sig) → Buf (Elt Ideal) ℓ) (ρ : Dev nD → PrngReg)

/-- The graph a grid step works on: step `t` of 32 is graph `t`. -/
abbrev graph (t : Fin cfg0.N) : Fin 32 := Fin.cast N_0 t

/-- The result: the batched network of the argument arrays as launched. -/
def result (c : Dev nD) : S32x1024x512.Idx → EReal :=
  batched (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))

/-! ## Which block each window holds at a step (the printed index maps, decided over the 32 steps) -/

theorem slab_features : ∀ t : Fin cfg0.N, win0_0.index t (0 : Fin 3) = t.val ∧ win0_0.index t (1 : Fin 3) = 0 ∧ win0_0.index t (2 : Fin 3) = 0 :=
  (by decide +kernel : ∀ t : Fin grid0.N, _)
theorem slab_adjacency : ∀ t : Fin cfg0.N, win0_1.index t (0 : Fin 3) = t.val ∧ win0_1.index t (1 : Fin 3) = 0 ∧ win0_1.index t (2 : Fin 3) = 0 :=
  (by decide +kernel : ∀ t : Fin grid0.N, _)
theorem slab_result : ∀ t : Fin cfg0.N, win0_8.index t (0 : Fin 3) = t.val ∧ win0_8.index t (1 : Fin 3) = 0 ∧ win0_8.index t (2 : Fin 3) = 0 :=
  (by decide +kernel : ∀ t : Fin grid0.N, _)
theorem whole_weights : ∀ t : Fin cfg0.N, (win0_2.index t (0 : Fin 2) = 0 ∧ win0_2.index t (1 : Fin 2) = 0)
    ∧ (win0_4.index t (0 : Fin 2) = 0 ∧ win0_4.index t (1 : Fin 2) = 0) ∧ (win0_6.index t (0 : Fin 2) = 0 ∧ win0_6.index t (1 : Fin 2) = 0) :=
  (by decide +kernel : ∀ t : Fin grid0.N, _)
theorem whole_biases : ∀ t : Fin cfg0.N, (win0_3.index t (0 : Fin 2) = 0 ∧ win0_3.index t (1 : Fin 2) = 0)
    ∧ (win0_5.index t (0 : Fin 2) = 0 ∧ win0_5.index t (1 : Fin 2) = 0) ∧ (win0_7.index t (0 : Fin 2) = 0 ∧ win0_7.index t (1 : Fin 2) = 0) :=
  (by decide +kernel : ∀ t : Fin grid0.N, _)

/-! ## What the host hands the kernel: the weights in another format, the biases as one-row arrays -/

theorem given_w1 (c : Dev nD) : (V m c main_v0 : S512x512.Idx → EReal) = (m ((c : Thread nD τ).loc main_arg2) : S512x512.Idx → EReal) := by
  dsimp only [Gen.V, Gen.hostOps0]; after_results; rfl
theorem given_w2 (c : Dev nD) : (V m c main_v1 : S512x512.Idx → EReal) = (m ((c : Thread nD τ).loc main_arg4) : S512x512.Idx → EReal) := by
  dsimp only [Gen.V, Gen.hostOps0]; after_results; rfl
theorem given_w3 (c : Dev nD) : (V m c main_v2 : S512x512.Idx → EReal) = (m ((c : Thread nD τ).loc main_arg6) : S512x512.Idx → EReal) := by
  dsimp only [Gen.V, Gen.hostOps0]; after_results; rfl
theorem given_b1 (c : Dev nD) : (V m c main_v3 : S1x512.Idx → EReal) = shapeCast S1x512 (m ((c : Thread nD τ).loc main_arg3)) shapeCasts_S512_S1x512 := by
  dsimp only [Gen.V, Gen.hostOps0]; after_results; rfl
theorem given_b2 (c : Dev nD) : (V m c main_v4 : S1x512.Idx → EReal) = shapeCast S1x512 (m ((c : Thread nD τ).loc main_arg5)) shapeCasts_S512_S1x512 := by
  dsimp only [Gen.V, Gen.hostOps0]; after_results; rfl
theorem given_b3 (c : Dev nD) : (V m c main_v5 : S1x512.Idx → EReal) = shapeCast S1x512 (m ((c : Thread nD τ).loc main_arg7)) shapeCasts_S512_S1x512 := by
  dsimp only [Gen.V, Gen.hostOps0]; after_results; rfl

/-! ## The input blocks at a step, entry by entry -/

/-- The feature block at step `t`, entry `(u, n, f)`: the features of graph `t` at `(n, f)`. -/
theorem features_block (c : Dev nD) (t : Fin cfg0.N) (u : Fin 1) (n : Fin 1024) (f : Fin 512) :
    (iblk m c 0 t : Vec Ideal S1x1024x512 .f32) (ix3 u n f) = m ((c : Thread nD τ).loc main_arg0) (ix3 (graph t) n f) := by
  obtain ⟨e0, e1, e2⟩ := slab_features t
  have hu : u.val = 0 := by omega
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 3) * 1 + 1 * u.val = t.val; omega
  | ⟨1, _⟩ => show win0_0.index t (1 : Fin 3) * 1024 + 1 * n.val = n.val; omega
  | ⟨2, _⟩ => show win0_0.index t (2 : Fin 3) * 512 + 1 * f.val = f.val; omega

/-- The adjacency block at step `t`, entry `(u, n, k)`: the adjacency matrix of graph `t` at `(n, k)`. -/
theorem adjacency_block (c : Dev nD) (t : Fin cfg0.N) (u : Fin 1) (n k : Fin 1024) :
    (iblk m c 1 t : Vec Ideal S1x1024x1024 .f32) (ix3 u n k) = m ((c : Thread nD τ).loc main_arg1) (ix3 (graph t) n k) := by
  obtain ⟨e0, e1, e2⟩ := slab_adjacency t
  have hu : u.val = 0 := by omega
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 3) * 1 + 1 * u.val = t.val; omega
  | ⟨1, _⟩ => show win0_1.index t (1 : Fin 3) * 1024 + 1 * n.val = n.val; omega
  | ⟨2, _⟩ => show win0_1.index t (2 : Fin 3) * 1024 + 1 * k.val = k.val; omega

/-- Weight window 2 holds its whole array at every step: entry `(f, h)` is the argument's. -/
theorem weights1_block (c : Dev nD) (t : Fin cfg0.N) (f h : Fin 512) :
    (iblk m c 2 t : Vec Ideal S512x512 .bf16) (ix2 f h) = m ((c : Thread nD τ).loc main_arg2) (ix2 f h) := by
  obtain ⟨e0, e1⟩ := (whole_weights t).1
  unfold iblk
  rw [View.read_apply]
  show (V m c main_v0 : S512x512.Idx → EReal) _ = _
  rw [given_w1]
  refine congrArg (m ((c : Thread nD τ).loc main_arg2) : S512x512.Idx → EReal) (funext fun a => Fin.ext ?_)
  match a with
  | ⟨0, _⟩ => show win0_2.index t (0 : Fin 2) * 512 + 1 * f.val = f.val; omega
  | ⟨1, _⟩ => show win0_2.index t (1 : Fin 2) * 512 + 1 * h.val = h.val; omega

/-- Weight window 4 holds its whole array at every step: entry `(f, h)` is the argument's. -/
theorem weights2_block (c : Dev nD) (t : Fin cfg0.N) (f h : Fin 512) :
    (iblk m c 4 t : Vec Ideal S512x512 .bf16) (ix2 f h) = m ((c : Thread nD τ).loc main_arg4) (ix2 f h) := by
  obtain ⟨e0, e1⟩ := (whole_weights t).2.1
  unfold iblk
  rw [View.read_apply]
  show (V m c main_v1 : S512x512.Idx → EReal) _ = _
  rw [given_w2]
  refine congrArg (m ((c : Thread nD τ).loc main_arg4) : S512x512.Idx → EReal) (funext fun a => Fin.ext ?_)
  match a with
  | ⟨0, _⟩ => show win0_4.index t (0 : Fin 2) * 512 + 1 * f.val = f.val; omega
  | ⟨1, _⟩ => show win0_4.index t (1 : Fin 2) * 512 + 1 * h.val = h.val; omega

/-- Weight window 6 holds its whole array at every step: entry `(f, h)` is the argument's. -/
theorem weights3_block (c : Dev nD) (t : Fin cfg0.N) (f h : Fin 512) :
    (iblk m c 6 t : Vec Ideal S512x512 .bf16) (ix2 f h) = m ((c : Thread nD τ).loc main_arg6) (ix2 f h) := by
  obtain ⟨e0, e1⟩ := (whole_weights t).2.2
  unfold iblk
  rw [View.read_apply]
  show (V m c main_v2 : S512x512.Idx → EReal) _ = _
  rw [given_w3]
  refine congrArg (m ((c : Thread nD τ).loc main_arg6) : S512x512.Idx → EReal) (funext fun a => Fin.ext ?_)
  match a with
  | ⟨0, _⟩ => show win0_6.index t (0 : Fin 2) * 512 + 1 * f.val = f.val; omega
  | ⟨1, _⟩ => show win0_6.index t (1 : Fin 2) * 512 + 1 * h.val = h.val; omega

/-- Bias window 3 holds its one-row array at every step: entry `(0, h)` is the argument vector's entry `h`. -/
theorem bias1_block (c : Dev nD) (t : Fin cfg0.N) (h : Fin 512) :
    (iblk m c 3 t : Vec Ideal S1x512 .f32) (ix2 (0 : Fin 1) h) = m ((c : Thread nD τ).loc main_arg3) (ix1 h) := by
  obtain ⟨e0, e1⟩ := (whole_biases t).1
  unfold iblk
  rw [View.read_apply]
  show (V m c main_v3 : S1x512.Idx → EReal) _ = _
  rw [given_b1]
  refine (congrArg (shapeCast S1x512 (m ((c : Thread nD τ).loc main_arg3)) shapeCasts_S512_S1x512) (funext fun a => Fin.ext ?_)).trans
    (shapeCast_a_1a_apply (m ((c : Thread nD τ).loc main_arg3)) shapeCasts_S512_S1x512 (0 : Fin 1) h)
  match a with
  | ⟨0, _⟩ => show win0_3.index t (0 : Fin 2) * 1 + 1 * 0 = 0; omega
  | ⟨1, _⟩ => show win0_3.index t (1 : Fin 2) * 512 + 1 * h.val = h.val; omega

/-- Bias window 5 holds its one-row array at every step: entry `(0, h)` is the argument vector's entry `h`. -/
theorem bias2_block (c : Dev nD) (t : Fin cfg0.N) (h : Fin 512) :
    (iblk m c 5 t : Vec Ideal S1x512 .f32) (ix2 (0 : Fin 1) h) = m ((c : Thread nD τ).loc main_arg5) (ix1 h) := by
  obtain ⟨e0, e1⟩ := (whole_biases t).2.1
  unfold iblk
  rw [View.read_apply]
  show (V m c main_v4 : S1x512.Idx → EReal) _ = _
  rw [given_b2]
  refine (congrArg (shapeCast S1x512 (m ((c : Thread nD τ).loc main_arg5)) shapeCasts_S512_S1x512) (funext fun a => Fin.ext ?_)).trans
    (shapeCast_a_1a_apply (m ((c : Thread nD τ).loc main_arg5)) shapeCasts_S512_S1x512 (0 : Fin 1) h)
  match a with
  | ⟨0, _⟩ => show win0_5.index t (0 : Fin 2) * 1 + 1 * 0 = 0; omega
  | ⟨1, _⟩ => show win0_5.index t (1 : Fin 2) * 512 + 1 * h.val = h.val; omega

/-- Bias window 7 holds its one-row array at every step: entry `(0, h)` is the argument vector's entry `h`. -/
theorem bias3_block (c : Dev nD) (t : Fin cfg0.N) (h : Fin 512) :
    (iblk m c 7 t : Vec Ideal S1x512 .f32) (ix2 (0 : Fin 1) h) = m ((c : Thread nD τ).loc main_arg7) (ix1 h) := by
  obtain ⟨e0, e1⟩ := (whole_biases t).2.2
  unfold iblk
  rw [View.read_apply]
  show (V m c main_v5 : S1x512.Idx → EReal) _ = _
  rw [given_b3]
  refine (congrArg (shapeCast S1x512 (m ((c : Thread nD τ).loc main_arg7)) shapeCasts_S512_S1x512) (funext fun a => Fin.ext ?_)).trans
    (shapeCast_a_1a_apply (m ((c : Thread nD τ).loc main_arg7)) shapeCasts_S512_S1x512 (0 : Fin 1) h)
  match a with
  | ⟨0, _⟩ => show win0_7.index t (0 : Fin 2) * 1 + 1 * 0 = 0; omega
  | ⟨1, _⟩ => show win0_7.index t (1 : Fin 2) * 512 + 1 * h.val = h.val; omega

/-! ## What a step writes back, the cover, the run -/

/-- WHAT STEP `t` WRITES BACK is slab `t` of the batched network of the argument arrays. -/
theorem flushed_eq (c : Dev nD) (t : Fin cfg0.N) :
    (dats m 0 c).flushed 8 t = ((cfg0.win 8).blk t).view.read (Elt Ideal) (result m c) := by
  obtain ⟨e0, e1, e2⟩ := slab_result t
  rw [Value.flushed8_A, Found.out_eq_stored]
  funext y
  obtain ⟨u, n, h, rfl⟩ : ∃ (u : Fin 1) (n : Fin 1024) (h : Fin 512), y = ix3 u n h := ⟨y 0, y 1, y 2, eq_ix3 y⟩
  have hu : u.val = 0 := by omega
  rw [View.read_apply]
  show Body.stored (iblk m c 0 t) (iblk m c 1 t) (iblk m c 2 t) (iblk m c 3 t) (iblk m c 4 t) (iblk m c 5 t) (iblk m c 6 t)
      (iblk m c 7 t) (ix3 u n h) = result m c (((cfg0.win 8).blk t).view.emb (ix3 u n h))
  have hpos : ((cfg0.win 8).blk t).view.emb (ix3 u n h) = (ix3 (graph t) n h : S32x1024x512.Idx) := funext fun a => Fin.ext (by
    match a with
    | ⟨0, _⟩ => show win0_8.index t (0 : Fin 3) * 1 + 1 * u.val = t.val; omega
    | ⟨1, _⟩ => show win0_8.index t (1 : Fin 3) * 1024 + 1 * n.val = n.val; omega
    | ⟨2, _⟩ => show win0_8.index t (2 : Fin 3) * 512 + 1 * h.val = h.val; omega)
  rw [hpos]
  refine (Body.stored_apply (iblk m c 0 t) (iblk m c 1 t) (iblk m c 2 t) (iblk m c 3 t) (iblk m c 4 t) (iblk m c 5 t)
    (iblk m c 6 t) (iblk m c 7 t) u n h).trans ?_
  unfold result batched
  exact net_congr (fun n k => adjacency_block m c t 0 n k) (fun n f => features_block m c t 0 n f)
    (fun f h => weights1_block m c t f h) (fun h => bias1_block m c t h)
    (fun f h => weights2_block m c t f h) (fun h => bias2_block m c t h)
    (fun f h => weights3_block m c t f h) (fun h => bias3_block m c t h) n h

/-- An index of the result array lies in step `t`'s block iff each coordinate lies in the block's range on its axis. -/
theorem mem_slab (t : Fin cfg0.N) (i : S32x1024x512.Idx) :
    i ∈ ((cfg0.win 8).blk t).view.set ↔ ∀ a : Fin 3, win0_8.index t a * S1x1024x512.size a ≤ (i a).val
      ∧ (i a).val < win0_8.index t a * S1x1024x512.size a + S1x1024x512.size a := by
  show i ∈ ((View.whole main_v6).slice (win0_8.rect t)).set ↔ _
  rw [View.set_slice_whole, Rect.mem_set_unit]
  exact Iff.rfl

/-- THE RESULT ARRAY after the run: every index `(β, n, h)` lies in the slab step `β` wrote back. -/
theorem final (c : Dev nD) : (dats m 0 c).arrAt 8 cfg0.N = result m c :=
  (dats m 0 c).arrAt_eq_of_cover 8 (result m c) (fun t _ => flushed_eq m c t) fun i => by
    have h0 : (i 0).val < 32 := (i 0).isLt
    have h1 : (i 1).val < 1024 := (i 1).isLt
    have h2 : (i 2).val < 512 := (i 2).isLt
    refine ⟨Fin.cast N_0.symm ⟨(i 0).val, h0⟩, flush0_8 _, ?_⟩
    obtain ⟨e0, e1, e2⟩ := slab_result (Fin.cast N_0.symm ⟨(i 0).val, h0⟩)
    have e0' : win0_8.index (Fin.cast N_0.symm ⟨(i 0).val, h0⟩) (0 : Fin 3) = (i 0).val := e0
    rw [mem_slab]
    intro a
    match a with
    | ⟨0, _⟩ => show win0_8.index _ (0 : Fin 3) * 1 ≤ (i 0).val ∧ (i 0).val < win0_8.index _ (0 : Fin 3) * 1 + 1; omega
    | ⟨1, _⟩ => show win0_8.index _ (1 : Fin 3) * 1024 ≤ (i 1).val ∧ (i 1).val < win0_8.index _ (1 : Fin 3) * 1024 + 1024; omega
    | ⟨2, _⟩ => show win0_8.index _ (2 : Fin 3) * 512 ≤ (i 2).val ∧ (i 2).val < win0_8.index _ (2 : Fin 3) * 512 + 512; omega

/-- The run, read: the result array at the batched network of the arguments, the arguments unchanged. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefValue.lean ====
/-
  The reference, entry by entry over the extended reals.

  The reference applies the same layer three times to the whole batch at once: a product of the [32, 1024, 512]
  features with the [512, 512] weights contracting the feature axis, a batched product with the [32, 1024, 1024]
  adjacency array contracting the node axis graph by graph, and the [512] bias spread over the batch and node axes.
  Read at entry `(β, n, h)` that is the layer of `Spec.lean` for graph `β` at `(n, h)`; `max(·, 0)` acts entrywise;
  so the reference's result is the batched network.  The second and third layers are the first layer's operations
  applied to other operands, so one reading of the layer serves all three.
-/
import proofs.«165957_j12807592477476_2_alg».proof.Proof.Gen.ReferenceIdeal.Read
import proofs.«165957_j12807592477476_2_alg».proof.Proof.Spec

noncomputable section

open scoped BigOperators
open Idealize.ShloMosaic Idealize.ShloMosaic.ValueIdx

namespace Cert.ReferenceIdeal.RefValue

open Cert.ReferenceIdeal Cert.ReferenceIdeal.Read Cert.Gcn

/-! ## Where the two products and the bias read their operands -/

theorem adj_at (β : Fin 32) (n : Fin 1024) (h : Fin 512) (k : Fin 1024) : lidx_main_v1 (ix3 β n h) k = ix3 β n k :=
  funext fun a => Fin.ext (by match a with | ⟨0, _⟩ => rfl | ⟨1, _⟩ => rfl | ⟨2, _⟩ => rfl)
theorem support_at (β : Fin 32) (n : Fin 1024) (h : Fin 512) (k : Fin 1024) : ridx_main_v1 (ix3 β n h) k = ix3 β k h :=
  funext fun a => Fin.ext (by match a with | ⟨0, _⟩ => rfl | ⟨1, _⟩ => rfl | ⟨2, _⟩ => rfl)
theorem features_at (β : Fin 32) (m : Fin 1024) (h : Fin 512) (f : Fin 512) : lidx_main_v0 (ix3 β m h) f = ix3 β m f :=
  funext fun a => Fin.ext (by match a with | ⟨0, _⟩ => rfl | ⟨1, _⟩ => rfl | ⟨2, _⟩ => rfl)
theorem weights_at (β : Fin 32) (m : Fin 1024) (h : Fin 512) (f : Fin 512) : ridx_main_v0 (ix3 β m h) f = ix2 f h :=
  funext fun a => Fin.ext (by match a with | ⟨0, _⟩ => rfl | ⟨1, _⟩ => rfl)
theorem bias_at (β : Fin 32) (n : Fin 1024) (h : Fin 512) : idx_main_v2 (idx_main_v3 (ix3 β n h)) = ix1 h :=
  funext fun a => Fin.ext (by match a with | ⟨0, _⟩ => rfl)

/-! ## One layer, and the rectifier -/

/-- The reference's layer over any features `H`, read at `(β, n, h)`: graph `β`'s layer at `(n, h)`. -/
theorem layer_apply (H : (⟨S32x1024x512, .f32⟩ : BufTy).Contents (Elt Ideal)) (A : (⟨S32x1024x1024, .f32⟩ : BufTy).Contents (Elt Ideal))
    (W : (⟨S512x512, .f32⟩ : BufTy).Contents (Elt Ideal)) (b : (⟨S512, .f32⟩ : BufTy).Contents (Elt Ideal))
    (β : Fin 32) (n : Fin 1024) (h : Fin 512) :
    val_main_v4 (F := Ideal) H A W b (ix3 β n h)
      = layer (fun n m => A (ix3 β n m)) (fun m f => H (ix3 β m f)) (fun f h => W (ix2 f h)) (fun h => b (ix1 h)) n h := by
  rw [val_main_v4_apply, val_main_v1_apply, val_main_v3_apply, val_main_v2_apply, bias_at]
  unfold layer
  show _ + _ = _
  refine congrArg (· + b (ix1 h)) (Finset.sum_congr rfl fun m _ => ?_)
  rw [adj_at, support_at, val_main_v0_apply]
  refine congrArg (A (ix3 β n m) * ·) (Finset.sum_congr rfl fun f _ => ?_)
  rw [features_at, weights_at]

/-- The rectifier after the first layer, at an index: `max` of the entry and zero. -/
theorem rectify1_apply (x0 : (⟨S32x1024x512, .f32⟩ : BufTy).Contents (Elt Ideal)) (x1 : (⟨S32x1024x1024, .f32⟩ : BufTy).Contents (Elt Ideal))
    (x2 : (⟨S512x512, .f32⟩ : BufTy).Contents (Elt Ideal)) (x3 : (⟨S512, .f32⟩ : BufTy).Contents (Elt Ideal)) (i : S32x1024x512.Idx) :
    val_main_v5 (F := Ideal) x0 x1 x2 x3 i = max (val_main_v4 (F := Ideal) x0 x1 x2 x3 i) 0 := by
  rw [val_main_v5_apply, val_main_call0_v0_apply, val_main_call0_cst_apply]
  show max _ (Ideal.ofBits .f32 0x00000000#32) = _
  rw [Ideal.ofBits_zero_f32]

/-- The rectifier after the second layer, likewise. -/
theorem rectify2_apply (x0 : (⟨S32x1024x512, .f32⟩ : BufTy).Contents (Elt Ideal)) (x1 : (⟨S32x1024x1024, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) (i : S32x1024x512.Idx) :
    val_main_v11 (F := Ideal) x0 x1 x2 x3 x4 x5 i = max (val_main_v10 (F := Ideal) x0 x1 x2 x3 x4 x5 i) 0 := by
  rw [val_main_v11_apply, val_main_call1_v0_apply, val_main_call1_cst_apply]
  show max _ (Ideal.ofBits .f32 0x00000000#32) = _
  rw [Ideal.ofBits_zero_f32]

/-- The second layer is the first layer's operations on the rectified first result, the second weights and bias. -/
theorem layer2_eq (x0 : (⟨S32x1024x512, .f32⟩ : BufTy).Contents (Elt Ideal)) (x1 : (⟨S32x1024x1024, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal)) :
    val_main_v10 (F := Ideal) x0 x1 x2 x3 x4 x5 = val_main_v4 (F := Ideal) (val_main_v5 (F := Ideal) x0 x1 x2 x3) x1 x4 x5 := rfl

/-- The third layer is the same operations on the rectified second result, the third weights and bias. -/
theorem layer3_eq (x0 : (⟨S32x1024x512, .f32⟩ : BufTy).Contents (Elt Ideal)) (x1 : (⟨S32x1024x1024, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal)) :
    val_main_v16 (F := Ideal) x0 x1 x2 x3 x4 x5 x6 x7
      = val_main_v4 (F := Ideal) (val_main_v11 (F := Ideal) x0 x1 x2 x3 x4 x5) x1 x6 x7 := rfl

/-! ## The result -/

/-- THE REFERENCE'S RESULT is the batched network of its arguments. -/
theorem result_eq (x0 : (⟨S32x1024x512, .f32⟩ : BufTy).Contents (Elt Ideal)) (x1 : (⟨S32x1024x1024, .f32⟩ : BufTy).Contents (Elt Ideal))
    (x2 : (⟨S512x512, .f32⟩ : BufTy).Contents (Elt Ideal)) (x3 : (⟨S512, .f32⟩ : BufTy).Contents (Elt Ideal))
    (x4 : (⟨S512x512, .f32⟩ : BufTy).Contents (Elt Ideal)) (x5 : (⟨S512, .f32⟩ : BufTy).Contents (Elt Ideal))
    (x6 : (⟨S512x512, .f32⟩ : BufTy).Contents (Elt Ideal)) (x7 : (⟨S512, .f32⟩ : BufTy).Contents (Elt Ideal)) :
    val_main_v16 (F := Ideal) x0 x1 x2 x3 x4 x5 x6 x7 = batched x0 x1 x2 x3 x4 x5 x6 x7 := by
  funext i
  obtain ⟨β, n, h, rfl⟩ : ∃ (β : Fin 32) (n : Fin 1024) (h : Fin 512), i = ix3 β n h := ⟨i 0, i 1, i 2, eq_ix3 i⟩
  rw [layer3_eq, layer_apply]
  unfold batched net
  refine layer_congr (fun _ _ => rfl) (fun m f => ?_) (fun _ _ => rfl) (fun _ => rfl) n h
  rw [rectify2_apply, layer2_eq, layer_apply]
  unfold relu
  refine congrArg (max · 0) (layer_congr (fun _ _ => rfl) (fun m f => ?_) (fun _ _ => rfl) (fun _ => rfl) m f)
  rw [rectify1_apply, layer_apply]

end Cert.ReferenceIdeal.RefValue

end
-- ==== Proof.lean ====
/-
  A three-layer graph-convolution network, fused into one kernel per graph, against its batched reference.

  For each of 32 graphs, with adjacency matrix `A` (1024 × 1024) and features `X` (1024 × 512), both programs compute
      out = A · (relu(A · (relu(A · (X · W1) + b1) · W2) + b2) · W3) + b3,        relu = max(·, 0) entrywise,
  the bias vectors added to every row.  The kernel takes one graph per grid step, keeps the adjacency matrix in a
  scratch buffer for its three uses, and feeds its matrix unit narrower floats; the reference applies each product to
  the whole batch at once.  Over the extended reals a change of float format is the identity and a matrix product is
  the sum of the products, so the two programs are THE SAME sums of the same terms in the same grouping
  (`Proof/Spec.lean`: `Cert.Gcn.batched`), entry by entry:

    • `Proof/Body.lean`, `Proof/Found.lean`: what a grid step stores over its output block is the network of that
      step's input blocks;
    • `Proof/Whole.lean`: step `t`'s blocks are slab `t` of the argument arrays (the weights and biases whole), the 32
      output slabs cover the result array, so the kernel's result is the batched network of the arguments;
    • `Proof/RefValue.lean`: so is the reference's result.

  No step uses that an input is finite: no term is cancelled, moved across a sum or distributed, so the claim holds for
  every extended-real input and the precondition is never opened.  The three frames are the generated ones (the
  reference's is its generated run with the result dropped), and the ideal pass rewrote nothing, so `preserves` is `True`.
-/
import proofs.«165957_j12807592477476_2_alg».proof.Defs
import proofs.«165957_j12807592477476_2_alg».proof.Proof.Gen.Kernel
import proofs.«165957_j12807592477476_2_alg».proof.Proof.Gen.Kernel.Frame
import proofs.«165957_j12807592477476_2_alg».proof.Proof.Gen.KernelIdeal
import proofs.«165957_j12807592477476_2_alg».proof.Proof.Gen.KernelIdeal.Frame
import proofs.«165957_j12807592477476_2_alg».proof.Proof.Gen.ReferenceIdeal
import proofs.«165957_j12807592477476_2_alg».proof.Proof.Gen.Pre_finite_inputs
import proofs.«165957_j12807592477476_2_alg».proof.Proof.Gen.KernelIdeal.Value
import proofs.«165957_j12807592477476_2_alg».proof.Proof.Gen.ReferenceIdeal.Run
import proofs.«165957_j12807592477476_2_alg».proof.Proof.Gen.ReferenceIdeal.Read
import proofs.«165957_j12807592477476_2_alg».proof.Proof.Whole
import proofs.«165957_j12807592477476_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments, both programs end with the batched network of those arguments in their
    result arrays: the kernel's by `Whole.run`, the reference's by its run read through `RefValue.result_eq`. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v16_eq, Cert.ReferenceIdeal.RefValue.result_eq, a0, a1, a2, a3, a4, a5, a6, a7]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
